-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S16777216x1 : Shape := ⟨2, ![16777216, 1]⟩
abbrev S8192x2 : Shape := ⟨2, ![8192, 2]⟩
abbrev S8192x1 : Shape := ⟨2, ![8192, 1]⟩
abbrev S8192 : Shape := ⟨1, ![8192]⟩

abbrev nBuf : Space → Nat
  | .hbm => 2
  | .vmem => 4
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .local _ .vmem, ⟨0, _⟩ => ⟨S8192x2, .f32⟩
  | .local _ .vmem, ⟨1, _⟩ => ⟨S8192x2, .f32⟩
  | .local _ .vmem, ⟨2, _⟩ => ⟨S8192x1, .f32⟩
  | .local _ .vmem, ⟨3, _⟩ => ⟨S8192x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  slices_S8192x2_o0_0_S8192x1 : S8192x2.Slices ![0, 0] S8192x1
  shapeCasts_S8192x1_S8192 : S8192x1.ShapeCasts S8192
  slices_S8192x2_o0_1_S8192x1 : S8192x2.Slices ![0, 1] S8192x1
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S16777216x2.size a
  hwx0_0 : ∀ i : grid0.Coords, EltTy.bits .f32 = 32 ∨ (Rect.block (s := S16777216x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S16777216x1.size a
  hwx0_1 : ∀ i : grid0.Coords, EltTy.bits .f32 = 32 ∨ (Rect.block (s := S16777216x1) S8192x1.size (cc0_transform_1 i) (hinb0_1 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216x1 : Shape := ⟨2, ![16777216, 1]⟩
abbrev S16777216 : Shape := ⟨1, ![16777216]⟩

abbrev nBuf : Space → Nat
  | .hbm => 9
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .hbm, ⟨2, _⟩ => ⟨S16777216, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216x1, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  bcast_S16777216_S16777216x1_0 : S16777216.BroadcastsInDim S16777216x1 (![0] : Fin 1 → Fin S16777216x1.rank)

variable [Facts₀]

class Facts : Prop extends Facts₀ where

variable [Facts]
-- ==== Proof.SinProduct.lean ====
/-
  The function both programs compute, stated once over the literal shapes.

  The input is an array `x` of 16777216 rows and 2 columns of extended reals: in each row two angles. The result has
  the same rows and ONE column, and its entry in row `r` is

      sin (x r 0) · sin (x r 1),

  the sine being the extended reals' (the real sine on a real number; its value at an infinity is whatever the ideal
  instance fixes, the same on both sides, and is never looked at here) and the product the extended reals' product.
  Nothing below uses a law of arithmetic: the two programs spell this ONE expression, and differ only in how they
  walk over the rows (all at once, or 2048 blocks of 8192 rows).
-/
import Idealize.ShloMosaic.PureOps.Ideal
import Idealize.ShloMosaic.Lib.ValueIdx

noncomputable section

namespace Cert.SinProduct

open Idealize.ShloMosaic Idealize.ShloMosaic.ValueIdx

/-- Row `i 0` of the one-column result: the product of the sines of that row's two angles. The column coordinate
    `i 1` of the result index carries no information (the column has extent 1). -/
def rowSinProduct (x : (⟨2, ![16777216, 2]⟩ : Shape).Idx → EReal) : (⟨2, ![16777216, 1]⟩ : Shape).Idx → EReal :=
  fun i => Ideal.sin (x (ix2 (i 0 : Fin 16777216) (0 : Fin 2))) * Ideal.sin (x (ix2 (i 0 : Fin 16777216) (1 : Fin 2)))

/-- The definition, read at an index. -/
theorem rowSinProduct_apply (x : (⟨2, ![16777216, 2]⟩ : Shape).Idx → EReal) (i : (⟨2, ![16777216, 1]⟩ : Shape).Idx) :
    rowSinProduct x i
      = Ideal.sin (x (ix2 (i 0 : Fin 16777216) (0 : Fin 2))) * Ideal.sin (x (ix2 (i 0 : Fin 16777216) (1 : Fin 2))) := rfl

end Cert.SinProduct

end
-- ==== Proof.ReferenceRows.lean ====
/-
  The reference computes `rowSinProduct`.

  Its eight operations are: column 0 of the input as a one-column array, flattened to a vector; the same for column 1;
  the sine of each vector; their entrywise product; and that vector stood up again as a one-column array. Read at a
  result index `i`, every one of these is its operand at ONE index, so the whole chain at `i` is
  `sin (x (i 0, 0)) · sin (x (i 0, 1))`: the only work is to follow the index through the slice, the flattening
  (row `r` of a one-column array is entry `r / 1 = r` of the vector) and the final broadcast.
-/
import proofs.«120783_j65481071400865_2_alg».proof.Proof.Gen.ReferenceIdeal.Read
import proofs.«120783_j65481071400865_2_alg».proof.Proof.SinProduct

noncomputable section

namespace Cert.ReferenceIdeal.Rows

open Cert.ReferenceIdeal Cert.ReferenceIdeal.Gen Cert.ReferenceIdeal.Read
open Idealize.ShloMosaic Idealize.ShloMosaic.ValueIdx Cert.SinProduct

/-- Through the broadcast, the flattening and the slice of column 0, result index `i` reads the input at row `i 0`,
    column 0. -/
theorem index_col0 (i : S16777216x1.Idx) :
    idx_main_v0 (idx_main_v1 (idx_main_v7 i)) = ix2 (i 0 : Fin 16777216) (0 : Fin 2) := by
  funext a; apply Fin.ext
  match a with
  | ⟨0, _⟩ => show (i 0).val / 1 = (i 0).val; omega
  | ⟨1, _⟩ => rfl

/-- Through the broadcast, the flattening and the slice of column 1, result index `i` reads the input at row `i 0`,
    column 1 (the slice starts at column 1 and the flattened vector's entry sits in the slice's column 0). -/
theorem index_col1 (i : S16777216x1.Idx) :
    idx_main_v2 (idx_main_v3 (idx_main_v7 i)) = ix2 (i 0 : Fin 16777216) (1 : Fin 2) := by
  funext a; apply Fin.ext
  match a with
  | ⟨0, _⟩ => show (i 0).val / 1 = (i 0).val; omega
  | ⟨1, _⟩ => rfl

/-- The reference's last stage, as a function of the input array, is `rowSinProduct`: at the ideal instance the host's
    sine is the extended reals' sine and the host's product their product. -/
theorem reference_eq (x : (⟨S16777216x2, .f32⟩ : BufTy).Contents (Elt Ideal)) :
    val_main_v7 (F := Ideal) x = rowSinProduct x := by
  funext i
  rw [val_main_v7_apply, val_main_v6_apply, val_main_v4_apply, val_main_v5_apply, val_main_v1_apply, val_main_v3_apply,
    val_main_v0_apply, val_main_v2_apply, index_col0, index_col1]
  rfl

end Cert.ReferenceIdeal.Rows

end
-- ==== Proof.KernelBlocks.lean ====
/-
  The kernel computes `rowSinProduct`, block by block.

  The grid has 2048 points. At point `t` the body is handed rows `8192·t … 8192·t + 8191` of the input (both
  columns) and writes the same rows of the one-column result: in row `p` of the block, the product of the sines of
  the two entries of row `p` of the input block. Three facts make the whole array out of that:

    * what the body leaves in its output block, as a function of the input block it loaded (`out_block`);
    * the input block and the output block of one point sit over the SAME rows of their arrays, so the block the body
      leaves is the restriction of `rowSinProduct` of the whole input to those rows (`flushed_eq`);
    * every row `r` lies in the block of exactly the point `r / 8192`, so the blocks cover the result (`covered`).
-/
import proofs.«120783_j65481071400865_2_alg».proof.Proof.Gen.KernelIdeal.Value
import proofs.«120783_j65481071400865_2_alg».proof.Proof.SinProduct
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.SinProduct

variable (m : (ℓ : Loc nD τ sig) → Buf (Elt Ideal) ℓ) (ρ : Dev nD → PrngReg)

/-! ## One block -/

/-- The zero offset of the body's load and store, as the constant function. -/
theorem offset_zero : (![0, 0] : Fin 2 → Nat) = fun _ => 0 := funext fun a => by fin_cases a <;> rfl

/-- WHAT THE BODY LEAVES in its output block, from the input block `x0` it loaded: in row `y 0`, the product of the
    sines of the two entries of row `y 0` of `x0`. (The body's one store covers the block, so the block is the store's
    payload; the payload's slices, flattenings and the final reshaping only move row `y 0` around.) -/
theorem out_block (x0 : Vec Ideal S8192x2 .f32) (y : S8192x1.Idx) :
    out0_1 (F := Ideal) x0 y
      = Ideal.sin (x0 (ix2 (y 0 : Fin 8192) (0 : Fin 2))) * Ideal.sin (x0 (ix2 (y 0 : Fin 8192) (1 : Fin 2))) := by
  unfold out0_1
  rw [View.ld_unit_zero (S := S8192x2) offset_zero]
  refine (Value.canon1_eq (F := Ideal) x0 y).trans ?_
  have e0 : Value.ix1_0 y = ix2 (y 0 : Fin 8192) (0 : Fin 2) := by
    funext a; apply Fin.ext
    match a with
    | ⟨0, _⟩ => rfl
    | ⟨1, _⟩ => rfl
  have e1 : Value.ix1_1 y = ix2 (y 0 : Fin 8192) (1 : Fin 2) := by
    funext a; apply Fin.ext
    match a with
    | ⟨0, _⟩ => rfl
    | ⟨1, _⟩ => rfl
  show Ideal.sin (x0 (Value.ix1_0 y)) * Ideal.sin (x0 (Value.ix1_1 y)) = _
  rw [e0, e1]
  rfl

/-! ## Where a point's blocks sit -/

/-- The printed index maps, decided over the 2048 points: on the row axis both windows' block index is the point's
    number, on the column axis it is 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry `(p, k)` of point `t`'s INPUT block is entry `(r, k)` of the input array, `r` the row of the result array
    under entry `(p, 0)` of the point's OUTPUT block: both are row `8192·t + p`. -/
theorem input_row (t : Fin cfg0.N) (j : S8192x1.Idx) (k : Fin 2) :
    ((cfg0.win 0).blk t).view.emb (ix2 (j 0 : Fin 8192) k)
      = ix2 ((((cfg0.win 1).blk t).view.emb j) 0 : Fin 16777216) k := by
  obtain ⟨e0, e1, e2, e3⟩ := index_facts t
  have hj : (j 0).val < 8192 := (j 0).isLt
  have hk : k.val < 2 := k.isLt
  funext a; apply Fin.ext
  match a with
  | ⟨0, _⟩ =>
    show win0_0.index t (0 : Fin 2) * 8192 + 1 * (j 0).val = win0_1.index t (0 : Fin 2) * 8192 + 1 * (j 0).val
    omega
  | ⟨1, _⟩ =>
    show win0_0.index t (1 : Fin 2) * 2 + 1 * k.val = k.val
    omega

/-- WHAT POINT `t` WRITES BACK is block `t` of `rowSinProduct` of the input array as the region finds it. -/
theorem flushed_eq (c : Dev nD) (t : Fin cfg0.N) :
    (dats (F := Ideal) m 0 c).flushed 1 t
      = ((cfg0.win 1).blk t).view.read (Elt Ideal) (rowSinProduct (V m c main_arg0)) := by
  rw [Value.flushed1]
  funext j
  show out0_1 (F := Ideal) (iblk m c 0 t) j = rowSinProduct (V m c main_arg0) (((cfg0.win 1).blk t).view.emb j)
  refine (out_block (iblk m c 0 t) j).trans ?_
  rw [rowSinProduct_apply]
  show Ideal.sin (V m c main_arg0 (((cfg0.win 0).blk t).view.emb (ix2 (j 0 : Fin 8192) (0 : Fin 2))))
      * Ideal.sin (V m c main_arg0 (((cfg0.win 0).blk t).view.emb (ix2 (j 0 : Fin 8192) (1 : Fin 2)))) = _
  rw [input_row t j 0, input_row t j 1]
  rfl

/-! ## The blocks cover the result -/

/-- An index of the result array is in point `t`'s block iff each coordinate is in the block's range on its axis. -/
theorem mem_block (t : Fin cfg0.N) (i : S16777216x1.Idx) :
    i ∈ ((cfg0.win 1).blk t).view.set ↔ ∀ a : Fin 2, win0_1.index t a * S8192x1.size a ≤ (i a).val
      ∧ (i a).val < win0_1.index t a * S8192x1.size a + S8192x1.size a := by
  show i ∈ ((View.whole main_v0).slice (win0_1.rect t)).set ↔ _
  rw [View.set_slice_whole, Rect.mem_set_unit]
  exact Iff.rfl

/-- Row `r` of the result is in the block of point `r / 8192`, which writes back: the blocks cover the array. -/
theorem covered (i : S16777216x1.Idx) :
    ∃ t : Fin cfg0.N, (cfg0.win 1).flush t = true ∧ i ∈ ((cfg0.win 1).blk t).view.set := by
  have hi0 : (i 0).val < 16777216 := (i 0).isLt
  have hi1 : (i 1).val < 1 := (i 1).isLt
  obtain ⟨t, ht⟩ : ∃ t : Fin cfg0.N, t.val = (i 0).val / 8192 :=
    ⟨⟨(i 0).val / 8192, by show (i 0).val / 8192 < 2048; omega⟩, rfl⟩
  obtain ⟨-, -, e2, e3⟩ := index_facts t
  refine ⟨t, flush0_1 t, ?_⟩
  rw [mem_block]
  intro a
  match a with
  | ⟨0, _⟩ =>
    show win0_1.index t (0 : Fin 2) * 8192 ≤ (i 0).val ∧ (i 0).val < win0_1.index t (0 : Fin 2) * 8192 + 8192
    omega
  | ⟨1, _⟩ =>
    show win0_1.index t (1 : Fin 2) * 1 ≤ (i 1).val ∧ (i 1).val < win0_1.index t (1 : Fin 2) * 1 + 1
    omega

/-! ## The array, and the run -/

/-- THE RESULT ARRAY after the run is `rowSinProduct` of the input array as launched. -/
theorem final (c : Dev nD) :
    (dats (F := Ideal) m 0 c).arrAt 1 cfg0.N = rowSinProduct (m ((c : Thread nD τ).loc main_arg0)) :=
  (dats (F := Ideal) m 0 c).arrAt_eq_of_cover 1 (rowSinProduct (V m c main_arg0))
    (fun t _ => flushed_eq m c t) covered

/-- Every weakly fair execution of the kernel's program terminates with the result array at `rowSinProduct` of the
    input and the input unchanged. -/
theorem run : θ_run defs (onTc (τ := τ) (main (F := Ideal))) ⟨m, fun _ => 0, ρ⟩ fun r => ∀ c : Dev nD,
      r.2.mem ((c : Thread nD τ).loc main_v0) = rowSinProduct (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Value.run_blocks (F := Ideal) m ρ)

end Cert.KernelIdeal.Blocks

end
-- ==== Proof.lean ====
/-
  The kernel and its reference compute the same array, as extended reals.

  The input holds two angles per row, in 16777216 rows. Both programs return, in row `r` of a one-column array,
  `sin (x r 0) · sin (x r 1)` (`Cert.SinProduct.rowSinProduct`, Proof/SinProduct.lean):

    * the reference takes each column out as a vector, applies the sine to both, multiplies entry by entry and stands
      the vector up as a column — read at an index, one chain of eight one-index reads (Proof/ReferenceRows.lean);
    * the kernel does the same on 2048 blocks of 8192 rows; a block of the result depends on the same rows of the input
      and on nothing else, and the blocks cover the result (Proof/KernelBlocks.lean).

  At the ideal instance the kernel's sine and the host's sine are one function on the extended reals, and so are the two
  products, so the two sides are the same expression and no law of arithmetic is used: in particular the finiteness of
  the input, which the claim grants, is never needed. No operation of the kernel was rewritten to idealize it, so there is
  nothing to preserve. The three frames are the generated ones; the reference's is its generated run with the value
  dropped.
-/
import proofs.«120783_j65481071400865_2_alg».proof.Defs
import proofs.«120783_j65481071400865_2_alg».proof.Proof.Gen.Kernel
import proofs.«120783_j65481071400865_2_alg».proof.Proof.Gen.Kernel.Frame
import proofs.«120783_j65481071400865_2_alg».proof.Proof.Gen.KernelIdeal
import proofs.«120783_j65481071400865_2_alg».proof.Proof.Gen.KernelIdeal.Frame
import proofs.«120783_j65481071400865_2_alg».proof.Proof.Gen.KernelIdeal.Value
import proofs.«120783_j65481071400865_2_alg».proof.Proof.Gen.ReferenceIdeal
import proofs.«120783_j65481071400865_2_alg».proof.Proof.Gen.ReferenceIdeal.Run
import proofs.«120783_j65481071400865_2_alg».proof.Proof.Gen.ReferenceIdeal.Read
import proofs.«120783_j65481071400865_2_alg».proof.Proof.Gen.Pre_finite_inputs
import proofs.«120783_j65481071400865_2_alg».proof.Proof.SinProduct
import proofs.«120783_j65481071400865_2_alg».proof.Proof.ReferenceRows
import proofs.«120783_j65481071400865_2_alg».proof.Proof.KernelBlocks
import Idealize.ShloMosaic.Adequacy
import Idealize.ShloMosaic.Init

noncomputable section

namespace Cert.Proof

open Idealize.ShloMosaic Idealize.SL.Sem

/-- The kernel as printed runs and leaves its input alone. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its input alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel was idealized with no rewrite: there is no conjunct to prove. -/
theorem preserves : Cert.preserves_Kernel_KernelIdeal := trivial

/-- From inputs that agree, the kernel's result array ends at `rowSinProduct` of the input (the blocks, put together)
    and the reference's at its last stage, which is `rowSinProduct` of the same input read index by index. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Rows.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
